-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S800000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S800000 .f32 := Host.absf main_arg4
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S800000 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 29
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S128x128, .f32⟩
  | .hbm, ⟨24, _⟩ => ⟨S128x128, .bf16⟩
  | .hbm, ⟨25, _⟩ => ⟨S128x128, .f32⟩
  | .hbm, ⟨26, _⟩ => ⟨S128x128, .bf16⟩
  | .hbm, ⟨27, _⟩ => ⟨S1x128, .f32⟩
  | .hbm, ⟨28, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S128x128, .bf16⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S128x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«118955_j47553877901461_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.Layer.lean ====
/-
  A graph layer's dense stage as one function of its arrays, over the extended reals.

  For node features X and aggregated neighbour features G (M rows, K columns each), two K×N weight matrices Ws and Wn and
  a bias β with N entries, the layer's value at row p and column q is

      (∑ c, X(p, c) · Ws(c, q)  +  ∑ c, G(p, c) · Wn(c, q))  +  β(q).

  Two facts about it are proved here. Row p of the value reads row p of X and of G only, so a block of consecutive rows of
  the value is the same function of the same rows of X and G. And adding the bias before the neighbour term instead of
  after it gives the same number: addition of extended reals is commutative and associative, infinities included, so no
  entry has to be finite for this.
-/
import proofs.«118955_j47553877901461_1_alg».proof.Proof.LibDenseProduct

noncomputable section

namespace Cert.Layer

open Idealize.ShloMosaic Idealize.ShloMosaic.ValueIdx Cert.LibDenseProduct

variable {M K N : Nat} {φx φg φs φn : FTy}

/-- The layer's value: self term plus neighbour term, plus the bias of the column. -/
def layer (X : FVec Ideal ⟨2, ![M, K]⟩ φx) (G : FVec Ideal ⟨2, ![M, K]⟩ φg) (Ws : FVec Ideal ⟨2, ![K, N]⟩ φs)
    (Wn : FVec Ideal ⟨2, ![K, N]⟩ φn) (β : Fin N → EReal) : FVec Ideal ⟨2, ![M, N]⟩ .f32 :=
  fun i => (mm X Ws i + mm G Wn i) + β (show Fin N from i 1)

theorem layer_apply (X : FVec Ideal ⟨2, ![M, K]⟩ φx) (G : FVec Ideal ⟨2, ![M, K]⟩ φg) (Ws : FVec Ideal ⟨2, ![K, N]⟩ φs)
    (Wn : FVec Ideal ⟨2, ![K, N]⟩ φn) (β : Fin N → EReal) (p : Fin M) (q : Fin N) :
    layer X G Ws Wn β (ix2 p q) = (mm X Ws (ix2 p q) + mm G Wn (ix2 p q)) + β q := rfl

/-- The bias added before the neighbour term: the same value, on every extended real. -/
theorem bias_first (X : FVec Ideal ⟨2, ![M, K]⟩ φx) (G : FVec Ideal ⟨2, ![M, K]⟩ φg) (Ws : FVec Ideal ⟨2, ![K, N]⟩ φs)
    (Wn : FVec Ideal ⟨2, ![K, N]⟩ φn) (β : Fin N → EReal) (i : (⟨2, ![M, N]⟩ : Shape).Idx) :
    (mm X Ws i + β (show Fin N from i 1)) + mm G Wn i = layer X G Ws Wn β i :=
  add_right_comm _ _ _

/-- The layer of equal arrays is equal. -/
theorem layer_congr {X X' : FVec Ideal ⟨2, ![M, K]⟩ φx} {G G' : FVec Ideal ⟨2, ![M, K]⟩ φg}
    {Ws Ws' : FVec Ideal ⟨2, ![K, N]⟩ φs} {Wn Wn' : FVec Ideal ⟨2, ![K, N]⟩ φn} {β β' : Fin N → EReal}
    (hX : X = X') (hG : G = G') (hWs : Ws = Ws') (hWn : Wn = Wn') (hβ : β = β') :
    layer X G Ws Wn β = layer X' G' Ws' Wn' β' := by
  subst hX hG hWs hWn hβ
  rfl

/-- Rows of the layer: if the small arrays x0 and g0 hold, in their row j 0, row i 0 of the large arrays X and G, then
    the small layer's value at j is the large layer's value at i whenever j and i name the same column. -/
theorem layer_rows {m : Nat} (X : FVec Ideal ⟨2, ![M, K]⟩ φx) (G : FVec Ideal ⟨2, ![M, K]⟩ φg)
    (Ws : FVec Ideal ⟨2, ![K, N]⟩ φs) (Wn : FVec Ideal ⟨2, ![K, N]⟩ φn) (β : Fin N → EReal)
    (x0 : FVec Ideal ⟨2, ![m, K]⟩ φx) (g0 : FVec Ideal ⟨2, ![m, K]⟩ φg)
    (j : (⟨2, ![m, N]⟩ : Shape).Idx) (i : (⟨2, ![M, N]⟩ : Shape).Idx)
    (hx : ∀ c : Fin K, x0 (ix2 (j 0) c) = X (ix2 (i 0) c)) (hg : ∀ c : Fin K, g0 (ix2 (j 0) c) = G (ix2 (i 0) c))
    (h1 : (j 1 : Fin N) = i 1) : layer x0 g0 Ws Wn β j = layer X G Ws Wn β i := by
  unfold layer
  rw [mm_rows X Ws x0 j i hx h1, mm_rows G Wn g0 j i hg h1]
  exact congrArg (fun b : Fin N => (mm X Ws i + mm G Wn i) + β b) h1

/-- The same for a block whose weights and bias are given as separate arrays equal to the large layer's. -/
theorem layer_block {m : Nat} (X : FVec Ideal ⟨2, ![M, K]⟩ φx) (G : FVec Ideal ⟨2, ![M, K]⟩ φg)
    (Ws : FVec Ideal ⟨2, ![K, N]⟩ φs) (Wn : FVec Ideal ⟨2, ![K, N]⟩ φn) (β : Fin N → EReal)
    (x0 : FVec Ideal ⟨2, ![m, K]⟩ φx) (g0 : FVec Ideal ⟨2, ![m, K]⟩ φg)
    (ws : FVec Ideal ⟨2, ![K, N]⟩ φs) (wn : FVec Ideal ⟨2, ![K, N]⟩ φn) (b0 : Fin N → EReal)
    (j : (⟨2, ![m, N]⟩ : Shape).Idx) (i : (⟨2, ![M, N]⟩ : Shape).Idx)
    (hx : ∀ c : Fin K, x0 (ix2 (j 0) c) = X (ix2 (i 0) c)) (hg : ∀ c : Fin K, g0 (ix2 (j 0) c) = G (ix2 (i 0) c))
    (hws : ws = Ws) (hwn : wn = Wn) (hb : b0 = β) (h1 : (j 1 : Fin N) = i 1) :
    layer x0 g0 ws wn b0 j = layer X G Ws Wn β i := by
  subst hws hwn hb
  exact layer_rows X G ws wn b0 x0 g0 j i hx hg h1

end Cert.Layer

end
-- ==== Proof.Ref.lean ====
/-
  The reference program's result is the layer, with the bias added before the neighbour term.

  The reference multiplies the node features by the transposed self weights, adds the bias (as a one-row array repeated
  over the rows), multiplies the aggregated neighbour features by the transposed neighbour weights, and adds that. Each
  product is the plain product of a 50000×128 by a 128×128 matrix, read as a sum over the contracted coordinate; the
  repeated bias read at row p and column q is the bias's entry q; and the order of the two additions does not matter on
  extended reals.
-/
import proofs.«118955_j47553877901461_1_alg».proof.Proof.Gen.ReferenceIdeal.Read
import proofs.«118955_j47553877901461_1_alg».proof.Proof.Layer

noncomputable section

namespace Cert.Ref

open Cert.ReferenceIdeal Cert.ReferenceIdeal.Gen Cert.ReferenceIdeal.Read Idealize.ShloMosaic Idealize.ShloMosaic.ValueIdx
open Cert.Layer Cert.LibDenseProduct

/-- The reference's matrix product is the plain product of a 50000×128 by a 128×128 matrix. -/
theorem dims_plain : dot_S50000x128_S128x128_S50000x128_1_0_0_1_n_n = DotDims.plain 50000 128 128 := rfl

/-- The self term: node features times the transposed self weights. -/
theorem self_term (x0 : (⟨S50000x128, .f32⟩ : BufTy).Contents (Elt Ideal)) (x1 : (⟨S128x128, .f32⟩ : BufTy).Contents (Elt Ideal)) :
    val_main_v14 (F := Ideal) x0 x1
      = mm (m := 50000) (k := 128) (n := 128) (φ₁ := .f32) (φ₂ := .f32) x0 (val_main_v13 (F := Ideal) x1) := by
  unfold val_main_v14
  rw [dims_plain]
  exact dotGeneral_plain_eq none _ _

/-- The neighbour term: aggregated neighbour features times the transposed neighbour weights. -/
theorem neigh_term (x0 : (⟨S50000x128, .f32⟩ : BufTy).Contents (Elt Ideal)) (x3 : (⟨S128x128, .f32⟩ : BufTy).Contents (Elt Ideal))
    (x4 : (⟨S800000, .f32⟩ : BufTy).Contents (Elt Ideal)) (x5 x6 : (⟨S800000, .i32⟩ : BufTy).Contents (Elt Ideal)) :
    val_main_v19 (F := Ideal) x0 x3 x4 x5 x6
      = mm (m := 50000) (k := 128) (n := 128) (φ₁ := .f32) (φ₂ := .f32) (val_main_v12 (F := Ideal) x0 x4 x5 x6) (val_main_v18 (F := Ideal) x3) := by
  unfold val_main_v19
  rw [dims_plain]
  exact dotGeneral_plain_eq none _ _

/-- The bias repeated over the rows, read at an index: the bias's entry at the index's column. -/
theorem bias_read (x2 : (⟨S128, .f32⟩ : BufTy).Contents (Elt Ideal)) (i : S50000x128.Idx) :
    val_main_v16 (F := Ideal) x2 i = x2 (ix1 (i 1)) := by
  rw [val_main_v16_apply, val_main_v15_apply]
  refine congrArg x2 (funext fun a => ?_)
  match a with
  | ⟨0, _⟩ => rfl

/-- The reference's result is the layer of the node features, the aggregated neighbour features, the two transposed
    weight matrices and the bias. -/
theorem result_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S800000, .f32⟩ : BufTy).Contents (Elt Ideal)) (x5 x6 : (⟨S800000, .i32⟩ : BufTy).Contents (Elt Ideal)) :
    val_main_v20 (F := Ideal) x0 x1 x2 x3 x4 x5 x6
      = layer (M := 50000) (K := 128) (N := 128) (φx := .f32) (φg := .f32) (φs := .f32) (φn := .f32)
          x0 (val_main_v12 (F := Ideal) x0 x4 x5 x6) (val_main_v13 (F := Ideal) x1) (val_main_v18 (F := Ideal) x3)
          (fun q => x2 (ix1 q)) := by
  funext i
  rw [val_main_v20_apply, val_main_v17_apply, self_term, neigh_term, bias_read]
  exact bias_first (M := 50000) (K := 128) (N := 128) x0 (val_main_v12 (F := Ideal) x0 x4 x5 x6) (val_main_v13 (F := Ideal) x1)
    (val_main_v18 (F := Ideal) x3) (fun q => x2 (ix1 q)) i

end Cert.Ref

end
-- ==== Proof.Body.lean ====
/-
  The kernel body's stored value is the layer of the blocks it loads.

  At a grid point the body loads a block of node features, a block of aggregated neighbour features, the two weight
  matrices and the one-row bias; it multiplies each feature block by its weight matrix into a zero accumulator, adds
  the two products, and adds the bias row repeated over the rows. The changes of number format on the way are the
  identity on extended reals, and so are the casts of an array to its own shape.
-/
import proofs.«118955_j47553877901461_1_alg».proof.Proof.Gen.KernelIdeal.Frame
import proofs.«118955_j47553877901461_1_alg».proof.Proof.Layer
import Idealize.ShloMosaic.Lib.ValueLayout
import Idealize.ShloMosaic.Lib.Pipeline.Value

noncomputable section

namespace Cert.Body

open Cert.KernelIdeal Cert.KernelIdeal.Gen Idealize.ShloMosaic Idealize.ShloMosaic.ValueIdx Cert.Layer Cert.LibDenseProduct

/-- The body's matrix product is the plain product of a 2000×128 by a 128×128 matrix. -/
theorem dims_plain : dot_S2000x128_S128x128_S2000x128_1_0_0_1_n_n = DotDims.plain 2000 128 128 := rfl

/-- The stored value, from the five loaded blocks. -/
theorem payload_eq (v0 v2 : Vec Ideal S2000x128 .f32) (v5 v8 : Vec Ideal S128x128 .bf16) (v12 : Vec Ideal S1x128 .f32) :
    k0_pay1 (F := Ideal) v0 v2 v5 v8 v12
      = layer (K := 128) (N := 128) (φx := .f32) (φg := .f32) (φs := .bf16) (φn := .bf16) v0 v2 v5 v8 (fun q => v12 (ix2 (0 : Fin 1) q)) := by
  funext j
  obtain ⟨p, q, rfl⟩ : ∃ (p : Fin 2000) (q : Fin 128), j = ix2 p q := ⟨j 0, j 1, eq_ix2 j⟩
  unfold k0_pay1
  simp only [shapeCast_self]
  rw [addf_apply, addf_apply, broadcastTo_1b_ab_apply, dims_plain, matmul_plain_zero_eq, matmul_plain_zero_eq]
  rfl

/-- The offset of the body's loads and of its one store is the origin of the block. -/
theorem origin_zero : (![0, 0] : Fin 2 → Nat) = fun _ => 0 := funext fun a => by fin_cases a <;> rfl

/-- What the body leaves in the output block: its one store covers the block, and every load reads a whole block. -/
theorem out_eq (x0 : Vec Ideal S2000x128 .f32) (x1 : Vec Ideal S128x128 .bf16) (x2 : Vec Ideal S1x128 .f32)
    (x3 : Vec Ideal S2000x128 .f32) (x4 : Vec Ideal S128x128 .bf16) :
    out0_5 (F := Ideal) x0 x1 x2 x3 x4
      = layer (K := 128) (N := 128) (φx := .f32) (φg := .f32) (φs := .bf16) (φn := .bf16) x0 x3 x1 x4 (fun q => x2 (ix2 (0 : Fin 1) q)) := by
  unfold out0_5
  rw [View.canon_unit_zero origin_zero]
  simp only [View.ld_unit_zero (S := S2000x128) origin_zero, View.ld_unit_zero (S := S128x128) origin_zero,
    View.ld_unit_zero (S := S1x128) origin_zero]
  exact payload_eq x0 x3 x1 x4 x2

end Cert.Body

end
-- ==== Proof.Whole.lean ====
/-
  From blocks to the array: after the run the output array is the layer of the arrays the launch found.

  The grid has 25 points. Point t stages rows 2000·t … 2000·t + 1999 of the node features and of the aggregated neighbour
  features, the two weight matrices and the bias row whole, and writes back rows 2000·t … 2000·t + 1999 of the output. What it
  writes is the layer of its blocks, and a block of rows of the layer is the layer of the same rows; the 25 blocks of
  2000 rows cover all 50000 rows, so the output array ends as the layer of the whole arrays.

  The block identity is proved for any five arrays whatever, read through the windows; it is then used at the arrays
  the launch found, which are never opened here.
-/
import proofs.«118955_j47553877901461_1_alg».proof.Proof.Gen.KernelIdeal.Value
import proofs.«118955_j47553877901461_1_alg».proof.Proof.Body

noncomputable section

namespace Cert.Whole

open Cert.KernelIdeal Cert.KernelIdeal.Gen Idealize.ShloMosaic Idealize.ShloMosaic.TcCoe Idealize.SL.Sem
open Idealize.ShloMosaic.ValueIdx Cert.Layer
open Idealize.ShloMosaic.Pipeline (Dat)

/-- The printed index maps over the grid: the two feature windows move with the output window along the rows, the
    weights and the bias stay at block 0, the output's block of rows at point t is block t, and no window moves along
    the columns. -/
theorem index_facts : ∀ t : Fin cfg0.N,
    win0_0.index t (0 : Fin 2) = win0_5.index t (0 : Fin 2) ∧ win0_0.index t (1 : Fin 2) = 0
    ∧ win0_3.index t (0 : Fin 2) = win0_5.index t (0 : Fin 2) ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- For any five arrays: the layer of their blocks at point t is block t of their layer. The feature blocks hold the
    rows the output block names, the weight and bias blocks are the whole arrays, and the columns are not moved. -/
theorem block_eq (t : Fin cfg0.N) (A0 A3 : S50000x128.Idx → EReal) (A1 A4 : S128x128.Idx → EReal) (A2 : S1x128.Idx → EReal) :
    (cfg0.win 5).cut (grid0.coords t)
      (layer (K := 128) (N := 128) (φx := .f32) (φg := .f32) (φs := .bf16) (φn := .bf16)
        (((cfg0.win 0).blk t).view.read (Elt Ideal) A0) (((cfg0.win 3).blk t).view.read (Elt Ideal) A3)
        (((cfg0.win 1).blk t).view.read (Elt Ideal) A1) (((cfg0.win 4).blk t).view.read (Elt Ideal) A4)
        (fun q => ((cfg0.win 2).blk t).view.read (Elt Ideal) A2 (ix2 (0 : Fin 1) q)))
      = ((cfg0.win 5).blk t).view.read (Elt Ideal)
          (layer (M := 50000) (K := 128) (N := 128) (φx := .f32) (φg := .f32) (φs := .bf16) (φn := .bf16)
            A0 A3 A1 A4 (fun q => A2 (ix2 (0 : Fin 1) q))) := by
  obtain ⟨e00, e01, e30, e31, e10, e11, e20, e21, e40, e41, e50, e51⟩ := index_facts t
  funext j
  show layer (K := 128) (N := 128) (φx := .f32) (φg := .f32) (φs := .bf16) (φn := .bf16)
      (((cfg0.win 0).blk t).view.read (Elt Ideal) A0) (((cfg0.win 3).blk t).view.read (Elt Ideal) A3)
      (((cfg0.win 1).blk t).view.read (Elt Ideal) A1) (((cfg0.win 4).blk t).view.read (Elt Ideal) A4)
      (fun q => ((cfg0.win 2).blk t).view.read (Elt Ideal) A2 (ix2 (0 : Fin 1) q)) j
    = layer (M := 50000) (K := 128) (N := 128) (φx := .f32) (φg := .f32) (φs := .bf16) (φn := .bf16)
        A0 A3 A1 A4 (fun q => A2 (ix2 (0 : Fin 1) q)) (((cfg0.win 5).blk t).view.emb j)
  refine layer_block A0 A3 A1 A4 (fun q => A2 (ix2 (0 : Fin 1) q))
    (((cfg0.win 0).blk t).view.read (Elt Ideal) A0) (((cfg0.win 3).blk t).view.read (Elt Ideal) A3)
    (((cfg0.win 1).blk t).view.read (Elt Ideal) A1) (((cfg0.win 4).blk t).view.read (Elt Ideal) A4)
    (fun q => ((cfg0.win 2).blk t).view.read (Elt Ideal) A2 (ix2 (0 : Fin 1) q))
    j (((cfg0.win 5).blk t).view.emb j) ?_ ?_ ?_ ?_ ?_ ?_
  · intro k
    show A0 (((cfg0.win 0).blk t).view.emb (ix2 (j 0) k)) = A0 (ix2 ((((cfg0.win 5).blk t).view.emb j) 0) k)
    refine congrArg A0 (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · intro k
    show A3 (((cfg0.win 3).blk t).view.emb (ix2 (j 0) k)) = A3 (ix2 ((((cfg0.win 5).blk t).view.emb j) 0) k)
    refine congrArg A3 (funext fun a => Fin.ext ?_)
    match a with
    | ⟨0, _⟩ => show win0_3.index t (0 : Fin 2) * 2000 + 1 * (j 0).val = win0_5.index t (0 : Fin 2) * 2000 + 1 * (j 0).val; omega
    | ⟨1, _⟩ => show win0_3.index t (1 : Fin 2) * 128 + 1 * k.val = k.val; omega
  · funext y
    show A1 (((cfg0.win 1).blk t).view.emb y) = A1 y
    refine congrArg A1 (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show A4 (((cfg0.win 4).blk t).view.emb y) = A4 y
    refine congrArg A4 (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext q
    show A2 (((cfg0.win 2).blk t).view.emb (ix2 (0 : Fin 1) q)) = A2 (ix2 (0 : Fin 1) q)
    refine congrArg A2 (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · refine Fin.ext ?_
    show (j 1).val = win0_5.index t (1 : Fin 2) * 128 + 1 * (j 1).val
    omega

variable (m : (ℓ : Loc nD τ sig) → Buf (Elt Ideal) ℓ) (ρ : Dev nD → PrngReg)

/-- The layer of the arrays the launch found, each named as the array its window stages. -/
def whole (c : Dev nD) : S50000x128.Idx → EReal :=
  layer (M := 50000) (K := 128) (N := 128) (φx := .f32) (φg := .f32) (φs := .bf16) (φn := .bf16)
    (V m c (Pipeline.arrRef spec0 (0 : Fin cfg0.W))) (V m c (Pipeline.arrRef spec0 (3 : Fin cfg0.W)))
    (V m c (Pipeline.arrRef spec0 (1 : Fin cfg0.W))) (V m c (Pipeline.arrRef spec0 (4 : Fin cfg0.W)))
    (fun q => (V m c (Pipeline.arrRef spec0 (2 : Fin cfg0.W)) : S1x128.Idx → EReal) (ix2 (0 : Fin 1) q))

/-- What point t writes back is block t of the layer of the whole arrays. -/
theorem flushed_eq (c : Dev nD) (t : Fin cfg0.N) :
    (dats (F := Ideal) m 0 c).flushed 5 t = ((cfg0.win 5).blk t).view.read (Elt Ideal) (whole m c) := by
  rw [Cert.KernelIdeal.Value.flushed5, Body.out_eq]
  unfold iblk whole
  exact block_eq t _ _ _ _ _

/-- An index of the output array lies in point t's block iff each coordinate lies in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v18).slice (win0_5.rect t)).set ↔ _
  rw [View.set_slice_whole, Rect.mem_set_unit]
  exact Iff.rfl

/-- Every index of the output array lies in some point's block: row r in the block of point r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < cfg0.N := by show _ < grid0.N; rw [N_0]; omega
  obtain ⟨-, -, -, -, -, -, -, -, -, -, e50, e51⟩ := index_facts ⟨(i 0).val / 2000, hN⟩
  have e50' : win0_5.index ⟨(i 0).val / 2000, hN⟩ (0 : Fin 2) = (i 0).val / 2000 := e50
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    omega
  | ⟨1, _⟩ =>
    show win0_5.index ⟨(i 0).val / 2000, hN⟩ (1 : Fin 2) * 128 ≤ (i 1).val
      ∧ (i 1).val < win0_5.index ⟨(i 0).val / 2000, hN⟩ (1 : Fin 2) * 128 + 128
    omega

/-- After the run the output array is the layer of the arrays the launch found. -/
theorem final (c : Dev nD) : (dats (F := Ideal) m 0 c).arrAt 5 cfg0.N = whole m c :=
  (dats (F := Ideal) m 0 c).arrAt_eq_of_cover 5 (whole m c) (fun t _ => flushed_eq m c t) cover

end Cert.Whole

end
-- ==== Proof.Entry.lean ====
/-
  What the kernel's launch finds in the five arrays it stages, as functions of the program's arguments.

  Before the launch the host computes, from the node features x, the edge weights w and the edge endpoints src and dst:
  the aggregated neighbour features (row src(e) of x, with a negative row number counted from the end, scaled by w(e), added
  into row dst(e) of a zero array, over all edges e); the two weight matrices transposed (the change of number format that
  follows is the identity on extended reals); and the bias as a one-row array. The node features themselves are staged as
  they are.
-/
import proofs.«118955_j47553877901461_1_alg».proof.Proof.Gen.KernelIdeal.Frame
import Idealize.ShloMosaic.Lib.StableHlo.Run
import Idealize.ShloMosaic.Lib.ValueIdx
import Idealize.ShloMosaic.Lib.Pipeline.Value

noncomputable section

namespace Cert.Entry

open Cert.KernelIdeal Cert.KernelIdeal.Gen Idealize.ShloMosaic Idealize.ShloMosaic.TcCoe Idealize.SL.Sem
open Idealize.ShloMosaic.StableHlo Idealize.ShloMosaic.ValueIdx

/-- The aggregated neighbour features, in the kernel program's spelling: gather the source rows (negative row numbers
    wrapped), scale each by its edge weight, add them into the destination rows of a zero array. -/
def neigh (x0 : (⟨S50000x128, .f32⟩ : BufTy).Contents (Elt Ideal)) (x4 : (⟨S800000, .f32⟩ : BufTy).Contents (Elt Ideal))
    (x5 x6 : (⟨S800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x6)
    (mulf (Host.gather gather_S50000x128_S800000x1_S800000x128_1_0_n_n_0_1_1128 x0
        (broadcastInDim S800000x1 ![0] bcast_S800000_S800000x1_0
          (select (cmpi .slt x5 (broadcastInDim S800000 ![] bcast_S_S800000 (constantI S_ 32 0#32)))
            (addi x5 (broadcastInDim S800000 ![] bcast_S_S800000 (constantI S_ 32 50000#32))) x5)))
      (broadcastInDim S800000x128 ![0, 1] bcast_S800000x1_S800000x128_0_1
        (broadcastInDim S800000x1 ![0] bcast_S800000_S800000x1_0 x4)))

variable (m : (ℓ : Loc nD τ sig) → Buf (Elt Ideal) ℓ)

/-- The launch finds the aggregated neighbour features in the array its fourth window stages. -/
theorem entry_neigh (c : Dev nD) :
    (V m c main_v12 : S50000x128.Idx → EReal)
      = neigh (m ((c : Thread nD τ).loc main_arg0)) (m ((c : Thread nD τ).loc main_arg4))
          (m ((c : Thread nD τ).loc main_arg5)) (m ((c : Thread nD τ).loc main_arg6)) := by
  dsimp only [Gen.V, Gen.hostOps0]
  after_results
  rfl

/-- The launch finds the self weights transposed (the format change is the identity). -/
theorem entry_wself (c : Dev nD) :
    (V m c main_v14 : S128x128.Idx → EReal)
      = transpose S128x128 [1, 0] (m ((c : Thread nD τ).loc main_arg1) : S128x128.Idx → EReal) transposes_S128x128_S128x128_1_0 := by
  dsimp only [Gen.V, Gen.hostOps0]
  after_results
  rfl

/-- The launch finds the neighbour weights transposed. -/
theorem entry_wneigh (c : Dev nD) :
    (V m c main_v16 : S128x128.Idx → EReal)
      = transpose S128x128 [1, 0] (m ((c : Thread nD τ).loc main_arg3) : S128x128.Idx → EReal) transposes_S128x128_S128x128_1_0 := by
  dsimp only [Gen.V, Gen.hostOps0]
  after_results
  rfl

/-- The launch finds the bias as a one-row array: entry (0, q) is the bias's entry q. -/
theorem entry_bias (c : Dev nD) (q : Fin 128) :
    (V m c main_v17 : S1x128.Idx → EReal) (ix2 (0 : Fin 1) q) = (m ((c : Thread nD τ).loc main_arg2) : S128.Idx → EReal) (ix1 q) := by
  have e : (V m c main_v17 : S1x128.Idx → EReal)
      = shapeCast S1x128 (m ((c : Thread nD τ).loc main_arg2) : S128.Idx → EReal) shapeCasts_S128_S1x128 := by
    dsimp only [Gen.V, Gen.hostOps0]
    after_results
    rfl
  rw [e]
  refine (shapeCast_apply _ shapeCasts_S128_S1x128 (ix2 (0 : Fin 1) q) (ix1 q) ?_)
  rw [Shape.rowMajor_val_one, Shape.rowMajor_val_two]
  show q.val = 0 * 128 + q.val
  omega

end Cert.Entry

end
-- ==== Proof.KernelRun.lean ====
/-
  The kernel program's run, with its result named as one function of the seven arguments.

  The output array ends as the layer of the arrays the launch found; those arrays are the node features as given, the
  aggregated neighbour features, the two weight matrices transposed, and the bias as a one-row array. So the result is
  the layer of the node features, the aggregated neighbour features, the transposed weights and the bias.
-/
import proofs.«118955_j47553877901461_1_alg».proof.Proof.Whole
import proofs.«118955_j47553877901461_1_alg».proof.Proof.Entry

noncomputable section

namespace Cert.KernelRun

open Cert.KernelIdeal Cert.KernelIdeal.Gen Idealize.ShloMosaic Idealize.ShloMosaic.TcCoe Idealize.SL.Sem
open Idealize.ShloMosaic.ValueIdx Cert.Layer

/-- The result as a function of the arguments: node features x0, self weights x1, bias x2, neighbour weights x3, edge
    weights x4, edge sources x5, edge destinations x6. -/
def value (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S800000, .f32⟩ : BufTy).Contents (Elt Ideal)) (x5 x6 : (⟨S800000, .i32⟩ : BufTy).Contents (Elt Ideal)) :
    S50000x128.Idx → EReal :=
  layer (M := 50000) (K := 128) (N := 128) (φx := .f32) (φg := .f32) (φs := .bf16) (φn := .bf16)
    x0 (Entry.neigh x0 x4 x5 x6)
    (transpose S128x128 [1, 0] (x1 : S128x128.Idx → EReal) transposes_S128x128_S128x128_1_0)
    (transpose S128x128 [1, 0] (x3 : S128x128.Idx → EReal) transposes_S128x128_S128x128_1_0)
    (fun q => (x2 : S128.Idx → EReal) (ix1 q))

variable (m : (ℓ : Loc nD τ sig) → Buf (Elt Ideal) ℓ) (ρ : Dev nD → PrngReg)

/-- The layer of the arrays the launch found is the result function of the arguments. -/
theorem whole_eq (c : Dev nD) :
    Whole.whole m c = value (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  unfold Whole.whole value
  exact layer_congr (V_main_arg0 m c) (Entry.entry_neigh m c) (Entry.entry_wself m c) (Entry.entry_wneigh m c)
    (funext (Entry.entry_bias m c))

/-- Every weakly fair execution of the kernel program terminates with the result array at the result function of the
    arguments, and the arguments unchanged. -/
theorem run : θ_run defs (onTc (τ := τ) (main (F := Ideal))) ⟨m, fun _ => 0, ρ⟩ fun r => ∀ c : Dev nD,
      r.2.mem ((c : Thread nD τ).loc main_v18) = value (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((Whole.final m c).trans (whole_eq m c)), (h c).2⟩)
    (Cert.KernelIdeal.Value.run_blocks m ρ)

end Cert.KernelRun

end
-- ==== Proof.Bridge.lean ====
/-
  The two programs compute one function of the arguments.

  Both programs spell the aggregated neighbour features and the transposed weights with the same operations in the same
  order, so those parts are the same terms. The reference's result is the layer with the bias added first, the kernel's the
  layer with the bias added last: the same extended real at every index.
-/
import proofs.«118955_j47553877901461_1_alg».proof.Proof.Ref
import proofs.«118955_j47553877901461_1_alg».proof.Proof.KernelRun

noncomputable section

namespace Cert.Bridge

open Idealize.ShloMosaic

/-- The aggregated neighbour features: the reference's spelling is the kernel program's. -/
theorem neigh_same (x0 : (⟨Cert.ReferenceIdeal.S50000x128, .f32⟩ : BufTy).Contents (Elt Ideal))
    (x4 : (⟨Cert.ReferenceIdeal.S800000, .f32⟩ : BufTy).Contents (Elt Ideal))
    (x5 x6 : (⟨Cert.ReferenceIdeal.S800000, .i32⟩ : BufTy).Contents (Elt Ideal)) :
    Cert.ReferenceIdeal.Read.val_main_v12 (F := Ideal) x0 x4 x5 x6 = Cert.Entry.neigh x0 x4 x5 x6 := rfl

/-- The reference's result is the kernel program's result function of the same arguments. -/
theorem result_same (x0 : (⟨Cert.ReferenceIdeal.S50000x128, .f32⟩ : BufTy).Contents (Elt Ideal))
    (x1 : (⟨Cert.ReferenceIdeal.S128x128, .f32⟩ : BufTy).Contents (Elt Ideal))
    (x2 : (⟨Cert.ReferenceIdeal.S128, .f32⟩ : BufTy).Contents (Elt Ideal))
    (x3 : (⟨Cert.ReferenceIdeal.S128x128, .f32⟩ : BufTy).Contents (Elt Ideal))
    (x4 : (⟨Cert.ReferenceIdeal.S800000, .f32⟩ : BufTy).Contents (Elt Ideal))
    (x5 x6 : (⟨Cert.ReferenceIdeal.S800000, .i32⟩ : BufTy).Contents (Elt Ideal)) :
    Cert.ReferenceIdeal.Read.val_main_v20 (F := Ideal) x0 x1 x2 x3 x4 x5 x6 = Cert.KernelRun.value x0 x1 x2 x3 x4 x5 x6 := by
  rw [Cert.Ref.result_eq, neigh_same]
  rfl

end Cert.Bridge

end
-- ==== Proof.lean ====
/-
  A graph layer's dense stage, computed block by block, against the same layer computed whole.

  Both programs first aggregate neighbour features: for every edge e, row src(e) of the node features x (a negative row
  number counted from the end), scaled by the edge weight w(e), is added into row dst(e) of a zero array; call the result
  G. Both spell this with the same operations in the same order. Writing Ws and Wn for the transposes of the two weight
  matrices and β for the bias, the one program then computes, 2000 rows at a time,

      (x · Ws + G · Wn) + β

  (its changes of number format are the identity on extended reals), and the other computes on whole arrays

      (x · Ws + β) + G · Wn.

  At row p and column q both are sums of the three extended reals ∑ c, x(p, c)·Ws(c, q), ∑ c, G(p, c)·Wn(c, q) and β(q), and
  addition of extended reals is commutative and associative at every value, the infinities included: the two results
  are equal entry by entry, and no input has to be finite for that.

  The modules: Layer (the layer as one function of five arrays, its rows, and the law for the order of the additions),
  Body (what the block program stores from the blocks it loads), Whole (the 25 blocks of 2000 rows make up the array),
  Entry (what the host computed before the launch), KernelRun (the block program's result as a function of the
  arguments), Ref (the whole-array program's result as the layer), Bridge (the two are one function).
-/
import proofs.«118955_j47553877901461_1_alg».proof.Defs
import proofs.«118955_j47553877901461_1_alg».proof.Proof.Gen.Kernel
import proofs.«118955_j47553877901461_1_alg».proof.Proof.Gen.Kernel.Skeleton
import proofs.«118955_j47553877901461_1_alg».proof.Proof.Gen.Kernel.Launch
import proofs.«118955_j47553877901461_1_alg».proof.Proof.Gen.Kernel.Points
import proofs.«118955_j47553877901461_1_alg».proof.Proof.Gen.Kernel.Frame
import proofs.«118955_j47553877901461_1_alg».proof.Proof.Gen.KernelIdeal
import proofs.«118955_j47553877901461_1_alg».proof.Proof.Gen.KernelIdeal.Skeleton
import proofs.«118955_j47553877901461_1_alg».proof.Proof.Gen.KernelIdeal.Launch
import proofs.«118955_j47553877901461_1_alg».proof.Proof.Gen.KernelIdeal.Points
import proofs.«118955_j47553877901461_1_alg».proof.Proof.Gen.KernelIdeal.Frame
import proofs.«118955_j47553877901461_1_alg».proof.Proof.Gen.ReferenceIdeal
import proofs.«118955_j47553877901461_1_alg».proof.Proof.Gen.Pre_finite_inputs
import proofs.«118955_j47553877901461_1_alg».proof.Proof.Gen.KernelIdeal.Value
import proofs.«118955_j47553877901461_1_alg».proof.Proof.Gen.ReferenceIdeal.Run
import proofs.«118955_j47553877901461_1_alg».proof.Proof.Gen.ReferenceIdeal.Read
import proofs.«118955_j47553877901461_1_alg».proof.Proof.Bridge
import Idealize.ShloMosaic.Adequacy
import Idealize.ShloMosaic.Init

noncomputable section

namespace Cert.Proof

open Idealize.ShloMosaic Idealize.ShloMosaic.TcCoe Idealize.SL.Sem

/-- The block program as printed runs and leaves its arguments as they were. -/
theorem frame_kernel : Cert.frame_Kernel := fun m ρ _ => Cert.Kernel.Gen.frame m ρ

/-- So does the block program read over the extended reals. -/
theorem frame_kernel_ideal : Cert.frame_KernelIdeal := fun m ρ _ => Cert.KernelIdeal.Gen.frame m ρ

/-- The whole-array program runs and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the block program over the extended reals rewrote none of its operations. -/
theorem preserves : Cert.preserves_Kernel_KernelIdeal := trivial

/-- From memories that agree on the arguments both programs end with the same result array: the layer of the node
    features, the aggregated neighbour features, the transposed weights and the bias. -/
theorem algebraic : Cert.algebraic_KernelIdeal_ReferenceIdeal := by
  intro m ρ m' ρ' _ hagree
  refine ⟨fun c => Cert.KernelRun.value
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v20_eq]
  exact Cert.Bridge.result_same _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
